-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S64x2048x64_S4x16x2048x64 : S64x2048x64.ShapeCasts S4x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  One row of scaled-dot-product attention on the extended reals, in the two arrangements this certificate joins.

  Fix a query row `q : Fin D → EReal`, the keys `K : Fin N → Fin D → EReal` and the values `V : Fin N → Fin E → EReal`,
  and write `c` for the scale (the f32 word `0x3E000000`, which is 1/8) and `-∞` for the word `0xFF800000`.

  * `rowScaledFirst` scales the query first: the score of key `j` is `s j = ∑ d, (q d · c) · K j d`; with `m` the maximum of
    the scores (a fold of `max` from `-∞`), `p j = exp (s j - m)` and `l = ∑ j, p j`, the output at feature `e` is
    `(∑ j, p j · V j e) / l` — the weights are normalised AFTER the product with the values.
  * `rowSoftmaxFirst` scales the score: `s j = (∑ d, q d · K j d) · c`; the maximum is taken once more against `-∞`, the sum
    of the exponentials starts from the f32 zero, and the output is `∑ j, (p j / l) · V j e` — the weights are normalised
    BEFORE the product.

  On finite data the two agree: the scale leaves the finite sum, and `1 / l` (with `l > 0`, a sum of exponentials) leaves
  the finite sum over the keys. That equality is proved in the algebra module; nothing here needs finiteness.
-/
import Idealize.ShloMosaic.PureOps.Ideal

noncomputable section

namespace Cert.Attn

open Idealize.ShloMosaic

/-- The scale `1/8` as the printed f32 word. -/
abbrev scaleC : EReal := Ideal.ofBits .f32 0x3E000000#32
/-- The maximum's start value, the f32 word of `-∞`. -/
abbrev negInf : EReal := Ideal.ofBits .f32 0xFF800000#32
/-- The f32 zero word. -/
abbrev zeroW : EReal := Ideal.ofBits .f32 0x00000000#32

variable {N D E : ℕ}

/-- The score of key `j` with the query scaled first. -/
def scoreScaledFirst (q : Fin D → EReal) (K : Fin N → Fin D → EReal) (j : Fin N) : EReal :=
  ∑ d : Fin D, (q d * scaleC) * K j d

/-- The unnormalised weight of key `j`: the exponential of its score less the row's maximum. -/
def weightScaledFirst (q : Fin D → EReal) (K : Fin N → Fin D → EReal) (j : Fin N) : EReal :=
  Ideal.exp (scoreScaledFirst q K j - (Finset.univ : Finset (Fin N)).fold max negInf (scoreScaledFirst q K))

/-- One output entry, the weights normalised after the product with the values. -/
def rowScaledFirst (q : Fin D → EReal) (K : Fin N → Fin D → EReal) (V : Fin N → Fin E → EReal) (e : Fin E) : EReal :=
  Ideal.div (∑ j : Fin N, weightScaledFirst q K j * V j e) (∑ j : Fin N, weightScaledFirst q K j)

/-- The score of key `j` with the scale applied to the finished dot product. -/
def scoreSoftmaxFirst (q : Fin D → EReal) (K : Fin N → Fin D → EReal) (j : Fin N) : EReal :=
  (∑ d : Fin D, q d * K j d) * scaleC

/-- The unnormalised weight of key `j`, the maximum taken once more against `-∞`. -/
def weightSoftmaxFirst (q : Fin D → EReal) (K : Fin N → Fin D → EReal) (j : Fin N) : EReal :=
  Ideal.exp (scoreSoftmaxFirst q K j
    - max negInf ((Finset.univ : Finset (Fin N)).fold max negInf (scoreSoftmaxFirst q K)))

/-- One output entry, the weights normalised (by the sum started from the f32 zero) before the product with the values. -/
def rowSoftmaxFirst (q : Fin D → EReal) (K : Fin N → Fin D → EReal) (V : Fin N → Fin E → EReal) (e : Fin E) : EReal :=
  ∑ j : Fin N, Ideal.div (weightSoftmaxFirst q K j) (zeroW + ∑ j' : Fin N, weightSoftmaxFirst q K j') * V j e

end Cert.Attn

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.Payload.lean ====
/-
  The kernel body's arithmetic at one entry of its output block.

  A grid point holds a `[1, 512, 64]` block of queries `x0` and the `[1, 2048, 64]` blocks of keys `x1` and values `x2` of its
  head. The body scales the queries by 1/8, multiplies by the transposed keys into a `[512, 2048]` block of scores, subtracts
  each row's maximum (kept as a column and spread back over the row), exponentiates, and divides the product of these weights
  with the values by each row's sum of weights. Read at row `p` and feature `e`, that is the row formula `rowScaledFirst` of the
  specification at query row `p`: the entry depends on row `p` of the queries and on all keys and values of the head.
-/
import proofs.«170479_j21586505630084_2_alg».proof.Proof.Gen.KernelIdeal.Skeleton
import proofs.«170479_j21586505630084_2_alg».proof.Proof.AttnSpec
import proofs.«170479_j21586505630084_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ### The scores' product: `[512, 64] × [64, 2048]`, contracted over the 64 features -/

theorem qk_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Into the zero accumulator the product read at `(p, s)` is the sum over the contracted axis of the left operand's row `p`
    times the right operand's column `s`. -/
theorem qk_apply (l : FVec Ideal S512x64 .f32) (r : FVec Ideal S64x2048 .f32) (p : Fin 512) (s : Fin 2048) :
    matmul dot_S512x64_S64x2048_S512x2048_1_0_0_1_n_n none l r (constant (F := Ideal) S512x2048 .f32 0x00000000#32) (ix2 p s)
      = ∑ k : Fin 64, l (ix2 p k) * r (ix2 k s) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p s) ((contrEquiv1 dot_S512x64_S64x2048_S512x2048_1_0_0_1_n_n 64 rfl rfl).symm k) = ix2 p k := funext fun a => Fin.ext (by
    match a with
    | ⟨0, _⟩ => exact qk_lhs0 _ _
    | ⟨1, _⟩ => exact (qk_lhs1 _ _).trans hk)
  have er : dot_S512x64_S64x2048_S512x2048_1_0_0_1_n_n.rhsIdx (ix2 p s) ((contrEquiv1 dot_S512x64_S64x2048_S512x2048_1_0_0_1_n_n 64 rfl rfl).symm k) = ix2 k s := funext fun a => Fin.ext (by
    match a with
    | ⟨0, _⟩ => exact (qk_rhs0 _ _).trans hk
    | ⟨1, _⟩ => exact qk_rhs1 _ _)
  rw [el, er]

/-! ### The weights' product with the values: `[512, 2048] × [2048, 64]`, contracted over the 2048 keys -/

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Into the zero accumulator the product read at `(p, s)` is the sum over the contracted axis of the left operand's row `p`
    times the right operand's column `s`. -/
theorem pv_apply (l : FVec Ideal S512x2048 .f32) (r : FVec Ideal S2048x64 .f32) (p : Fin 512) (s : Fin 64) :
    matmul dot_S512x2048_S2048x64_S512x64_1_0_0_1_n_n none l r (constant (F := Ideal) S512x64 .f32 0x00000000#32) (ix2 p s)
      = ∑ k : Fin 2048, l (ix2 p k) * r (ix2 k s) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p s) ((contrEquiv1 dot_S512x2048_S2048x64_S512x64_1_0_0_1_n_n 2048 rfl rfl).symm k) = ix2 p k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 p s) ((contrEquiv1 dot_S512x2048_S2048x64_S512x64_1_0_0_1_n_n 2048 rfl rfl).symm k) = ix2 k s := funext fun a => Fin.ext (by
    match a with
    | ⟨0, _⟩ => exact (pv_rhs0 _ _).trans hk
    | ⟨1, _⟩ => exact pv_rhs1 _ _)
  rw [el, er]

/-! ### The body's intermediate blocks -/

/-- The exponential, entry by entry. -/
theorem exp_apply {s : Shape} (a : FVec Ideal s .f32) (i : s.Idx) : exp a i = Ideal.exp (a i) := rfl

/-- Each row's maximum of a `[512, 2048]` block, from `-∞`. -/
def rowMaxV (v : FVec Ideal S512x2048 .f32) : FVec Ideal S512 .f32 :=
  multiReduction .maximumf [1] S512 v 0xFF800000#32 reduces_S512x2048_S512 (.inl rfl) rfl

/-- Each row's sum of a `[512, 2048]` block. -/
def rowSumV (v : FVec Ideal S512x2048 .f32) : FVec Ideal S512 .f32 :=
  multiReduction .add [1] S512 v 0x00000000#32 reduces_S512x2048_S512 (.inl rfl) rfl

/-- Row `p`'s maximum is the fold of `max`, from `-∞`, over the row's entries. -/
theorem rowMaxV_apply (v : FVec Ideal S512x2048 .f32) (p : Fin 512) :
    rowMaxV v (ix1 p) = (Finset.univ : Finset (Fin 2048)).fold max Cert.Attn.negInf (fun s => v (ix2 p s)) :=
  Cert.Keepdims.rowMax_apply v 0xFF800000#32 reduces_S512x2048_S512 (.inl rfl) rfl p

/-- Row `p`'s sum is the sum of the row's entries. -/
theorem rowSumV_apply (v : FVec Ideal S512x2048 .f32) (p : Fin 512) :
    rowSumV v (ix1 p) = ∑ s : Fin 2048, v (ix2 p s) :=
  Cert.Keepdims.rowSum_apply v 0x00000000#32 reduces_S512x2048_S512 (.inl rfl) rfl p

/-- The block of scores: the scaled queries times the transposed keys. -/
def scoresBlk (x0 : FVec Ideal S1x512x64 .f32) (x1 : FVec Ideal S1x2048x64 .f32) : FVec Ideal S512x2048 .f32 :=
  matmul dot_S512x64_S64x2048_S512x2048_1_0_0_1_n_n none
    (mulf (shapeCast S512x64 x0 shapeCasts_S1x512x64_S512x64 : FVec Ideal S512x64 .f32) (broadcast S512x64 (Scalar.ofBits .f32 0x3E000000#32)))
    (transpose S64x2048 [1, 0] (shapeCast S2048x64 x1 shapeCasts_S1x2048x64_S2048x64 : FVec Ideal S2048x64 .f32) transposes_S2048x64_p1_0_S64x2048 : FVec Ideal S64x2048 .f32)
    (constant S512x2048 .f32 0x00000000#32)

/-- The block of unnormalised weights: the exponential of each score less its row's maximum. -/
def weightsBlk (x0 : FVec Ideal S1x512x64 .f32) (x1 : FVec Ideal S1x2048x64 .f32) : FVec Ideal S512x2048 .f32 :=
  exp (subf (scoresBlk x0 x1)
    (broadcastTo S512x2048 (shapeCast S512x1 (rowMaxV (scoresBlk x0 x1)) shapeCasts_S512_S512x1 : FVec Ideal S512x1 .f32)
      broadcasts_S512x1_S512x2048 : FVec Ideal S512x2048 .f32))

/-- The body's stored value is the weights' product with the values divided by the rows' sums of weights. -/
theorem pay_eq (x0 : FVec Ideal S1x512x64 .f32) (x1 x2 : FVec Ideal S1x2048x64 .f32) :
    k0_pay1 (F := Ideal) x0 x1 x2
      = shapeCast S1x512x64
          (divf
            (matmul dot_S512x2048_S2048x64_S512x64_1_0_0_1_n_n none (weightsBlk x0 x1)
              (shapeCast S2048x64 x2 shapeCasts_S1x2048x64_S2048x64 : FVec Ideal S2048x64 .f32) (constant S512x64 .f32 0x00000000#32) : FVec Ideal S512x64 .f32)
            (broadcastTo S512x64 (shapeCast S512x1 (rowSumV (weightsBlk x0 x1)) shapeCasts_S512_S512x1 : FVec Ideal S512x1 .f32)
              broadcasts_S512x1_S512x64 : FVec Ideal S512x64 .f32))
          shapeCasts_S512x64_S1x512x64 := rfl

/-! ### The blocks read at an index -/

/-- The score of query row `p` against key `s`. -/
theorem scores_apply (x0 : FVec Ideal S1x512x64 .f32) (x1 : FVec Ideal S1x2048x64 .f32) (p : Fin 512) (s : Fin 2048) :
    scoresBlk x0 x1 (ix2 p s)
      = Cert.Attn.scoreScaledFirst (fun d : Fin 64 => x0 (ix3 (0 : Fin 1) p d))
          (fun (j : Fin 2048) (d : Fin 64) => x1 (ix3 (0 : Fin 1) j d)) s := by
  unfold scoresBlk
  rw [qk_apply]
  unfold Cert.Attn.scoreScaledFirst
  refine Finset.sum_congr rfl fun d _ => ?_
  rw [mulf_apply, broadcast_apply, shapeCast_1ab_ab_apply, transpose_ix2_apply, shapeCast_1ab_ab_apply]
  rfl

/-- The weight of key `s` in query row `p`. -/
theorem weights_apply (x0 : FVec Ideal S1x512x64 .f32) (x1 : FVec Ideal S1x2048x64 .f32) (p : Fin 512) (s : Fin 2048) :
    weightsBlk x0 x1 (ix2 p s)
      = Cert.Attn.weightScaledFirst (fun d : Fin 64 => x0 (ix3 (0 : Fin 1) p d))
          (fun (j : Fin 2048) (d : Fin 64) => x1 (ix3 (0 : Fin 1) j d)) s := by
  unfold weightsBlk
  rw [exp_apply, subf_apply, Cert.Keepdims.spread_apply, rowMaxV_apply]
  unfold Cert.Attn.weightScaledFirst
  simp only [scores_apply]

/-- THE PAYLOAD AT AN ENTRY: row `p`, feature `e` of the stored block is the specification's row formula at the block's
    query row `p`, over the head's keys and values. -/
theorem payload_apply (x0 : FVec Ideal S1x512x64 .f32) (x1 x2 : FVec Ideal S1x2048x64 .f32) (u : Fin 1) (p : Fin 512) (e : Fin 64) :
    k0_pay1 (F := Ideal) x0 x1 x2 (ix3 u p e)
      = Cert.Attn.rowScaledFirst (fun d : Fin 64 => x0 (ix3 (0 : Fin 1) p d))
          (fun (j : Fin 2048) (d : Fin 64) => x1 (ix3 (0 : Fin 1) j d))
          (fun (j : Fin 2048) (d : Fin 64) => x2 (ix3 (0 : Fin 1) j d)) e := by
  rw [pay_eq, shapeCast_ab_1ab_apply, divf_apply, Cert.Keepdims.spread_apply, rowSumV_apply, pv_apply]
  unfold Cert.Attn.rowScaledFirst
  simp only [weights_apply, shapeCast_1ab_ab_apply]

end Cert.KernelIdeal.Hand

end
-- ==== Proof.Blocks.lean ====
/-
  From the blocks to the array: what the region leaves in its `[64, 2048, 64]` output array.

  The grid has 64 × 4 points; point `t` is head `g = t / 4` and query tile `t % 4`. It reads rows `512·(t % 4) … + 511` of the
  queries of head `g` and ALL 2048 rows of that head's keys and values, and writes rows `512·(t % 4) … + 511` of head `g` of the
  output. Entry `(g, r, e)` of the output is therefore the specification's row formula at query row `r` of head `g`, over that
  head's keys and values — one function `headRows` of the three arrays — and since the 256 blocks tile the array, the array
  after the run is that function everywhere.
-/
import proofs.«170479_j21586505630084_2_alg».proof.Proof.Gen.KernelIdeal.Frame
import proofs.«170479_j21586505630084_2_alg».proof.Proof.Payload
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-! ### The whole-array function -/

/-- Entry `(g, r, e)`: the row formula at query row `r` of head `g`, over head `g`'s keys and values. -/
def headRowsAt (A B C : FVec Ideal S64x2048x64 .f32) (g : Fin 64) (r : Fin 2048) (e : Fin 64) : EReal :=
  Cert.Attn.rowScaledFirst (fun d : Fin 64 => A (ix3 g r d)) (fun (j : Fin 2048) (d : Fin 64) => B (ix3 g j d))
    (fun (j : Fin 2048) (d : Fin 64) => C (ix3 g j d)) e

/-- The region's output as one function of its three input arrays. -/
def headRows (A B C : FVec Ideal S64x2048x64 .f32) : FVec Ideal S64x2048x64 .f32 := fun i =>
  headRowsAt A B C ⟨(i 0).val, (i 0).isLt⟩ ⟨(i 1).val, (i 1).isLt⟩ ⟨(i 2).val, (i 2).isLt⟩

theorem headRows_ix3 (A B C : FVec Ideal S64x2048x64 .f32) (g : Fin 64) (r : Fin 2048) (e : Fin 64) :
    headRows A B C (ix3 g r e) = headRowsAt A B C g r e := rfl

/-- An entry of a point's stored block is the whole-array function at the entry's place in the array, when the point's
    three input blocks are the arrays read at head `g` (the queries at the tile's rows). -/
theorem block_entry (A B C : FVec Ideal S64x2048x64 .f32) (x0 : FVec Ideal S1x512x64 .f32) (x1 x2 : FVec Ideal S1x2048x64 .f32)
    (g : Fin 64) (off : ℕ)
    (h0 : ∀ (p : Fin 512) (d : Fin 64) (r : Fin 2048), r.val = off + p.val → x0 (ix3 (0 : Fin 1) p d) = A (ix3 g r d))
    (h1 : ∀ (j : Fin 2048) (d : Fin 64), x1 (ix3 (0 : Fin 1) j d) = B (ix3 g j d))
    (h2 : ∀ (j : Fin 2048) (d : Fin 64), x2 (ix3 (0 : Fin 1) j d) = C (ix3 g j d))
    (y : S1x512x64.Idx) (i : S64x2048x64.Idx) (hi0 : (i 0).val = g.val) (hi1 : (i 1).val = off + (y 1).val)
    (hi2 : (i 2).val = (y 2).val) :
    k0_pay1 (F := Ideal) x0 x1 x2 y = headRows A B C i := by
  obtain ⟨u, p, e, rfl⟩ : ∃ (u : Fin 1) (p : Fin 512) (e : Fin 64), y = ix3 u p e := ⟨y 0, y 1, y 2, eq_ix3 y⟩
  obtain ⟨g', r, e', rfl⟩ : ∃ (g' : Fin 64) (r : Fin 2048) (e' : Fin 64), i = ix3 g' r e' := ⟨i 0, i 1, i 2, eq_ix3 i⟩
  obtain rfl : g' = g := Fin.ext hi0
  obtain rfl : e' = e := Fin.ext hi2
  rw [payload_apply, headRows_ix3]
  unfold headRowsAt
  have e0 : (fun d : Fin 64 => x0 (ix3 (0 : Fin 1) p d)) = fun d : Fin 64 => A (ix3 g' r d) :=
    funext fun d => h0 p d r hi1
  have e1 : (fun (j : Fin 2048) (d : Fin 64) => x1 (ix3 (0 : Fin 1) j d)) = fun (j : Fin 2048) (d : Fin 64) => B (ix3 g' j d) :=
    funext fun j => funext fun d => h1 j d
  have e2 : (fun (j : Fin 2048) (d : Fin 64) => x2 (ix3 (0 : Fin 1) j d)) = fun (j : Fin 2048) (d : Fin 64) => C (ix3 g' j d) :=
    funext fun j => funext fun d => h2 j d
  rw [e0, e1, e2]

/-! ### The printed index maps, decided over the grid -/

theorem hz3 : (![0, 0, 0] : Fin 3 → Nat) = fun _ => 0 := funext fun a => by fin_cases a <;> rfl

/-- Point `t` is head `t / 4`, query tile `t % 4`: the queries' and the output's blocks sit at `(t / 4, t % 4, 0)`, the keys' and
    the values' at `(t / 4, 0, 0)`. -/
theorem idx_facts : ∀ t : Fin cfg0.N,
    win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

variable (m : (ℓ : Loc nD τ sig) → Buf (Elt Ideal) ℓ) (ρ : Dev nD → PrngReg)

/-! ### Each input block is its array read at the block's place -/

theorem iblk0_apply (c : Dev nD) (t : Fin cfg0.N) (x : S1x512x64.Idx) (k : S64x2048x64.Idx)
    (hk0 : (k 0).val = t.val / 4 + (x 0).val) (hk1 : (k 1).val = t.val % 4 * 512 + (x 1).val) (hk2 : (k 2).val = (x 2).val) :
    (iblk m c 0 t : FVec Ideal S1x512x64 .f32) x = (V m c main_v0 : FVec Ideal S64x2048x64 .f32) k := by
  obtain ⟨-, -, -, a0, a1, a2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * (x 0).val = (k 0).val; rw [a0, hk0]; omega
  | ⟨1, _⟩ => show win0_0.index t (1 : Fin 3) * 512 + 1 * (x 1).val = (k 1).val; rw [a1, hk1]; omega
  | ⟨2, _⟩ => show win0_0.index t (2 : Fin 3) * 64 + 1 * (x 2).val = (k 2).val; rw [a2, hk2]; omega

theorem iblk1_apply (c : Dev nD) (t : Fin cfg0.N) (x : S1x2048x64.Idx) (k : S64x2048x64.Idx)
    (hk0 : (k 0).val = t.val / 4 + (x 0).val) (hk1 : (k 1).val = (x 1).val) (hk2 : (k 2).val = (x 2).val) :
    (iblk m c 1 t : FVec Ideal S1x2048x64 .f32) x = (V m c main_v1 : FVec Ideal S64x2048x64 .f32) k := by
  obtain ⟨-, -, -, -, -, -, a0, a1, a2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * (x 0).val = (k 0).val; rw [a0, hk0]; omega
  | ⟨1, _⟩ => show win0_1.index t (1 : Fin 3) * 2048 + 1 * (x 1).val = (k 1).val; rw [a1, hk1]; omega
  | ⟨2, _⟩ => show win0_1.index t (2 : Fin 3) * 64 + 1 * (x 2).val = (k 2).val; rw [a2, hk2]; omega

theorem iblk2_apply (c : Dev nD) (t : Fin cfg0.N) (x : S1x2048x64.Idx) (k : S64x2048x64.Idx)
    (hk0 : (k 0).val = t.val / 4 + (x 0).val) (hk1 : (k 1).val = (x 1).val) (hk2 : (k 2).val = (x 2).val) :
    (iblk m c 2 t : FVec Ideal S1x2048x64 .f32) x = (V m c main_v2 : FVec Ideal S64x2048x64 .f32) k := by
  obtain ⟨-, -, -, -, -, -, -, -, -, a0, a1, a2⟩ := idx_facts t
  unfold iblk
  rw [View.read_apply]
  show V m c main_v2 _ = V m c main_v2 _
  congr 1
  funext a
  apply Fin.ext
  match a with
  | ⟨0, _⟩ => show win0_2.index t (0 : Fin 3) * 1 + 1 * (x 0).val = (k 0).val; rw [a0, hk0]; omega
  | ⟨1, _⟩ => show win0_2.index t (1 : Fin 3) * 2048 + 1 * (x 1).val = (k 1).val; rw [a1, hk1]; omega
  | ⟨2, _⟩ => show win0_2.index t (2 : Fin 3) * 64 + 1 * (x 2).val = (k 2).val; rw [a2, hk2]; omega

/-! ### What a point writes back, the cover, the array after the run -/

/-- WHAT POINT `t` WRITES BACK is block `t` of `headRows` of the three arrays as the region finds them. -/
theorem flushed_eq (c : Dev nD) (t : Fin cfg0.N) :
    (dats m 0 c).flushed 3 t
      = ((cfg0.win 3).blk t).view.read (Elt Ideal) (headRows (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨b0, b1, b2, -⟩ := idx_facts t
  have hN : cfg0.N = 256 := N_0
  have ht : t.val / 4 < 64 := by have := t.isLt; omega
  funext y
  show k0_pay1 (F := Ideal) (iblk m c 0 t) (iblk m c 1 t) (iblk m c 2 t) y
      = headRows (V m c main_v0) (V m c main_v1) (V m c main_v2) (((cfg0.win 3).blk t).view.emb y)
  have hy0 : (y 0).val < 1 := (y 0).isLt
  refine block_entry (V m c main_v0) (V m c main_v1) (V m c main_v2) (iblk m c 0 t) (iblk m c 1 t) (iblk m c 2 t)
    ⟨t.val / 4, ht⟩ (t.val % 4 * 512) ?_ ?_ ?_ y (((cfg0.win 3).blk t).view.emb y) ?_ ?_ ?_
  · intro p d r hr
    exact iblk0_apply m c t (ix3 (0 : Fin 1) p d) (ix3 (⟨t.val / 4, ht⟩ : Fin 64) r d) (Nat.add_zero _).symm hr rfl
  · intro j d
    exact iblk1_apply m c t (ix3 (0 : Fin 1) j d) (ix3 (⟨t.val / 4, ht⟩ : Fin 64) j d) (Nat.add_zero _).symm rfl rfl
  · intro j d
    exact iblk2_apply m c t (ix3 (0 : Fin 1) j d) (ix3 (⟨t.val / 4, ht⟩ : Fin 64) j d) (Nat.add_zero _).symm rfl rfl
  · show win0_3.index t (0 : Fin 3) * 1 + 1 * (y 0).val = t.val / 4
    rw [b0]; omega
  · show win0_3.index t (1 : Fin 3) * 512 + 1 * (y 1).val = t.val % 4 * 512 + (y 1).val
    rw [b1]; omega
  · show win0_3.index t (2 : Fin 3) * 64 + 1 * (y 2).val = (y 2).val
    rw [b2]; omega

/-- An index of the array is in point `t`'s block iff each coordinate is in the block's range on its axis. -/
theorem mem_blk (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- THE COVER: entry `(g, r, e)` lies in the block of point `4 g + r / 512`. -/
theorem cover (i : S64x2048x64.Idx) :
    ∃ t : Fin cfg0.N, (cfg0.win 3).flush t = true ∧ i ∈ ((cfg0.win 3).blk t).view.set := by
  have hN : cfg0.N = 256 := N_0
  have h0 : (i 0).val < 64 := (i 0).isLt
  have h1 : (i 1).val < 2048 := (i 1).isLt
  have h2 : (i 2).val < 64 := (i 2).isLt
  obtain ⟨t, ht⟩ : ∃ t : Fin cfg0.N, t.val = (i 0).val * 4 + (i 1).val / 512 :=
    ⟨⟨(i 0).val * 4 + (i 1).val / 512, by rw [hN]; omega⟩, rfl⟩
  obtain ⟨b0, b1, b2, -⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [b0]; omega
  | ⟨1, _⟩ =>
    show win0_3.index t (1 : Fin 3) * 512 ≤ (i 1).val ∧ (i 1).val < win0_3.index t (1 : Fin 3) * 512 + 512
    rw [b1]; omega
  | ⟨2, _⟩ =>
    show win0_3.index t (2 : Fin 3) * 64 ≤ (i 2).val ∧ (i 2).val < win0_3.index t (2 : Fin 3) * 64 + 64
    rw [b2]; omega

/-- THE ARRAY after the run is `headRows` of the three arrays as the region finds them. -/
theorem final (c : Dev nD) :
    (dats m 0 c).arrAt 3 cfg0.N = headRows (V m c main_v0) (V m c main_v1) (V m c main_v2) :=
  (dats m 0 c).arrAt_eq_of_cover 3 (headRows (V m c main_v0) (V m c main_v1) (V m c main_v2))
    (fun t _ => flushed_eq m c t) cover

end Cert.KernelIdeal.Hand

end
-- ==== Proof.LibMergeAxes.lean ====
/-
  A reshape that merges the two leading axes of a rank-4 array, and the reshape that splits them again, read at an index.

  A `[a, b, c, d]` array re-laid as `[n, c, d]` with `n = a · b` keeps the row-major order, so entry `(g, k, l)` of the result with
  `g = i · b + j` is entry `(i, j, k, l)` of the operand; and the other way round. Stated at any element type and any extents;
  the merged coordinate is given by its value (`g = i · b + j`), so a caller never has to build it from a product.
-/
import Idealize.ShloMosaic.Lib.Pipeline.Value
import Idealize.ShloMosaic.Lib.ValueIdx

namespace Cert.MergeAxes

open Idealize.ShloMosaic Idealize.ShloMosaic.ValueIdx

variable {α : Type}

/-- `[a, b, c, d] → [n, c, d]`: the merged array at `(g, k, l)`, `g = i · b + j`, is the operand at `(i, j, k, l)`. -/
theorem shapeCast_merge_apply {a b c d n : ℕ} (x : (⟨4, ![a, b, c, d]⟩ : Shape).Idx → α)
    (h : (⟨4, ![a, b, c, d]⟩ : Shape).ShapeCasts ⟨3, ![n, c, d]⟩)
    (i : Fin a) (j : Fin b) (k : Fin c) (l : Fin d) (g : Fin n) (hg : g.val = i.val * b + j.val) :
    shapeCast ⟨3, ![n, c, d]⟩ x h (ix3 g k l) = x (ix4 i j k l) :=
  shapeCast_apply x h _ _ (by
    rw [Shape.rowMajor_val_four, Shape.rowMajor_val_three]
    show ((i.val * b + j.val) * c + k.val) * d + l.val = (g.val * c + k.val) * d + l.val
    rw [hg])

/-- `[n, c, d] → [a, b, c, d]`: the split array at `(i, j, k, l)` is the operand at `(g, k, l)`, `g = i · b + j`. -/
theorem shapeCast_split_apply {a b c d n : ℕ} (x : (⟨3, ![n, c, d]⟩ : Shape).Idx → α)
    (h : (⟨3, ![n, c, d]⟩ : Shape).ShapeCasts ⟨4, ![a, b, c, d]⟩)
    (i : Fin a) (j : Fin b) (k : Fin c) (l : Fin d) (g : Fin n) (hg : g.val = i.val * b + j.val) :
    shapeCast ⟨4, ![a, b, c, d]⟩ x h (ix4 i j k l) = x (ix3 g k l) :=
  shapeCast_apply x h _ _ (by
    rw [Shape.rowMajor_val_four, Shape.rowMajor_val_three]
    show (g.val * c + k.val) * d + l.val = ((i.val * b + j.val) * c + k.val) * d + l.val
    rw [hg])

end Cert.MergeAxes
-- ==== Proof.Tail.lean ====
/-
  The kernel's whole run, read back.

  Around the region the program only re-lays arrays: each `[4, 16, 2048, 64]` argument is reshaped to `[64, 2048, 64]` (batch and
  head merged into one axis of 64 heads, `g = 16 b + h`), the region computes `headRows` of the three, and its `[64, 2048, 64]`
  result is reshaped back. So the result array is one function `attnResult` of the three argument arrays, and at `(b, h, r, e)`
  it is the specification's row formula at query row `r` of head `(b, h)`, over that head's keys and values.
-/
import proofs.«170479_j21586505630084_2_alg».proof.Proof.Blocks
import proofs.«170479_j21586505630084_2_alg».proof.Proof.LibMergeAxes
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

/-! ### The result as one function of the arguments -/

/-- The three arguments with batch and head merged, the region's function of them, and the result split back. -/
def attnResult (Q K V : FVec Ideal S4x16x2048x64 .f32) : FVec Ideal S4x16x2048x64 .f32 :=
  shapeCast S4x16x2048x64
    (headRows (shapeCast S64x2048x64 Q shapeCasts_S4x16x2048x64_S64x2048x64)
      (shapeCast S64x2048x64 K shapeCasts_S4x16x2048x64_S64x2048x64)
      (shapeCast S64x2048x64 V shapeCasts_S4x16x2048x64_S64x2048x64))
    shapeCasts_S64x2048x64_S4x16x2048x64

/-- At `(b, h, r, e)`: the row formula at query row `r` of head `(b, h)`. Head `(b, h)` is merged head `16 b + h`, on the way in and
    on the way out. -/
theorem attnResult_apply (Q K V : FVec Ideal S4x16x2048x64 .f32) (b : Fin 4) (hd : Fin 16) (r : Fin 2048) (e : Fin 64) :
    attnResult Q K V (ix4 b hd r e)
      = Cert.Attn.rowScaledFirst (fun d : Fin 64 => Q (ix4 b hd r d)) (fun (j : Fin 2048) (d : Fin 64) => K (ix4 b hd j d))
          (fun (j : Fin 2048) (d : Fin 64) => V (ix4 b hd j d)) e := by
  have hg : b.val * 16 + hd.val < 64 := by have := b.isLt; have := hd.isLt; omega
  unfold attnResult
  rw [Cert.MergeAxes.shapeCast_split_apply _ _ b hd r e (⟨b.val * 16 + hd.val, hg⟩ : Fin 64) rfl, headRows_ix3]
  unfold headRowsAt
  have eQ : ∀ (r' : Fin 2048) (d : Fin 64), shapeCast S64x2048x64 Q shapeCasts_S4x16x2048x64_S64x2048x64
      (ix3 (⟨b.val * 16 + hd.val, hg⟩ : Fin 64) r' d) = Q (ix4 b hd r' d) :=
    fun r' d => Cert.MergeAxes.shapeCast_merge_apply Q _ b hd r' d _ rfl
  have eK : ∀ (r' : Fin 2048) (d : Fin 64), shapeCast S64x2048x64 K shapeCasts_S4x16x2048x64_S64x2048x64
      (ix3 (⟨b.val * 16 + hd.val, hg⟩ : Fin 64) r' d) = K (ix4 b hd r' d) :=
    fun r' d => Cert.MergeAxes.shapeCast_merge_apply K _ b hd r' d _ rfl
  have eV : ∀ (r' : Fin 2048) (d : Fin 64), shapeCast S64x2048x64 V shapeCasts_S4x16x2048x64_S64x2048x64
      (ix3 (⟨b.val * 16 + hd.val, hg⟩ : Fin 64) r' d) = V (ix4 b hd r' d) :=
    fun r' d => Cert.MergeAxes.shapeCast_merge_apply V _ b hd r' d _ rfl
  simp only [eQ, eK, eV]

variable (m : (ℓ : Loc nD τ sig) → Buf (Elt Ideal) ℓ) (ρ : Dev nD → PrngReg)

/-! ### The host lines before the region -/

theorem V_main_v0 (c : Dev nD) : (V m c main_v0 : FVec Ideal S64x2048x64 .f32)
    = shapeCast S64x2048x64 (m ((c.tc : Thread nD τ).loc main_arg0) : FVec Ideal S4x16x2048x64 .f32) shapeCasts_S4x16x2048x64_S64x2048x64 := by
  show StableHlo.after hostOps0 (fun b => m (c, b)) (Proc.devRef .tc main_v0) = _
  after_results
  rfl
theorem V_main_v1 (c : Dev nD) : (V m c main_v1 : FVec Ideal S64x2048x64 .f32)
    = shapeCast S64x2048x64 (m ((c.tc : Thread nD τ).loc main_arg1) : FVec Ideal S4x16x2048x64 .f32) shapeCasts_S4x16x2048x64_S64x2048x64 := by
  show StableHlo.after hostOps0 (fun b => m (c, b)) (Proc.devRef .tc main_v1) = _
  after_results
  rfl
theorem V_main_v2 (c : Dev nD) : (V m c main_v2 : FVec Ideal S64x2048x64 .f32)
    = shapeCast S64x2048x64 (m ((c.tc : Thread nD τ).loc main_arg2) : FVec Ideal S4x16x2048x64 .f32) shapeCasts_S4x16x2048x64_S64x2048x64 := by
  show StableHlo.after hostOps0 (fun b => m (c, b)) (Proc.devRef .tc main_v2) = _
  after_results
  rfl

/-! ### The host line after the region, and the run -/

/-- The result buffer after the last line: the region's array (the whole-array function of the reshaped arguments) reshaped. -/
theorem tail_eq (c : Dev nD) :
    Pipeline.afterTail₀ cfgs (dats m) 0 (V0 m) [hostOps1] c main_v4
      = attnResult (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have e := (Pipeline.withArrays_arr spec0 launch0.win.arr_inj c (V0 m c) (fun w => (dats m 0 c).arrAt w cfg0.N) 3).trans (final m c)
  rw [V_main_v0, V_main_v1, V_main_v2] at e
  exact congrArg (fun X => shapeCast S4x16x2048x64 X shapeCasts_S64x2048x64_S4x16x2048x64) e

/-- THE RUN, READ: every weakly fair execution terminates with the result array at `attnResult` of the arguments, the arguments
    unchanged. -/
theorem run : θ_run defs (onTc (τ := τ) (main (F := Ideal))) ⟨m, fun _ => 0, ρ⟩ fun r => ∀ c : Dev nD,
      r.2.mem ((c.tc : Thread nD τ).loc main_v4) = attnResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefRead.lean ====
/-
  The reference read at an entry.

  The reference computes, for batch `b` and head `h`, the scores `(∑ d, Q[b,h,r,d] · K[b,h,s,d]) · 1/8` of every query row `r` against
  every key `s`, the softmax of each row (the row's maximum, taken once more against `-∞`, subtracted; the exponentials divided by
  their sum, which starts from the f32 zero), and the product of these weights with the values. At `(b, h, r, e)` that is the
  specification's `rowSoftmaxFirst` at query row `r` of head `(b, h)`, over that head's keys and values. Every stage but one is
  read by the generated index lemmas; the row maximum, a fold over the last axis, is read here.
-/
import proofs.«170479_j21586505630084_2_alg».proof.Proof.Gen.ReferenceIdeal.Read
import proofs.«170479_j21586505630084_2_alg».proof.Proof.AttnSpec
import Idealize.ShloMosaic.Lib.ValueIdx
import Idealize.ShloMosaic.PureOps.Ideal.Laws
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.ValueIdx

/-! ### The generated index maps at coordinates -/

theorem lidx0 (b : Fin 4) (h : Fin 16) (r s : Fin 2048) (k : Fin 64) : lidx_main_v0 (ix4 b h r s) k = ix4 b h r k :=
  funext fun a => Fin.ext (by match a with | ⟨0, _⟩ => rfl | ⟨1, _⟩ => rfl | ⟨2, _⟩ => rfl | ⟨3, _⟩ => rfl)
theorem ridx0 (b : Fin 4) (h : Fin 16) (r s : Fin 2048) (k : Fin 64) : ridx_main_v0 (ix4 b h r s) k = ix4 b h s k :=
  funext fun a => Fin.ext (by match a with | ⟨0, _⟩ => rfl | ⟨1, _⟩ => rfl | ⟨2, _⟩ => rfl | ⟨3, _⟩ => rfl)
theorem idx67 (b : Fin 4) (h : Fin 16) (r s : Fin 2048) : idx_main_v6 (idx_main_v7 (ix4 b h r s)) = ix3 b h r :=
  funext fun a => Fin.ext (by match a with | ⟨0, _⟩ => rfl | ⟨1, _⟩ => rfl | ⟨2, _⟩ => rfl)
theorem idx1112 (b : Fin 4) (h : Fin 16) (r s : Fin 2048) : idx_main_v11 (idx_main_v12 (ix4 b h r s)) = ix3 b h r :=
  funext fun a => Fin.ext (by match a with | ⟨0, _⟩ => rfl | ⟨1, _⟩ => rfl | ⟨2, _⟩ => rfl)
theorem idx10 (b : Fin 4) (h : Fin 16) (r k : Fin 2048) : idx_main_v10 (ix3 b h r) k = ix4 b h r k :=
  funext fun a => Fin.ext (by match a with | ⟨0, _⟩ => rfl | ⟨1, _⟩ => rfl | ⟨2, _⟩ => rfl | ⟨3, _⟩ => rfl)
theorem lidx14 (b : Fin 4) (h : Fin 16) (r : Fin 2048) (e : Fin 64) (k : Fin 2048) : lidx_main_v14 (ix4 b h r e) k = ix4 b h r k :=
  funext fun a => Fin.ext (by match a with | ⟨0, _⟩ => rfl | ⟨1, _⟩ => rfl | ⟨2, _⟩ => rfl | ⟨3, _⟩ => rfl)
theorem ridx14 (b : Fin 4) (h : Fin 16) (r : Fin 2048) (e : Fin 64) (k : Fin 2048) : ridx_main_v14 (ix4 b h r e) k = ix4 b h k e :=
  funext fun a => Fin.ext (by match a with | ⟨0, _⟩ => rfl | ⟨1, _⟩ => rfl | ⟨2, _⟩ => rfl | ⟨3, _⟩ => rfl)

/-- The index a reduction over the last axis inserts: row `(b, h, r)` with key `s` put back is `(b, h, r, s)`. -/
theorem lift3 (hR : S4x16x2048x2048.Reduces [3] S4x16x2048) (b : Fin 4) (h : Fin 16) (r : Fin 2048) (s : Fin (S4x16x2048x2048.size 3)) : hR.lift (ix3 b h r) s = ix4 b h r (⟨s.val, s.isLt⟩ : Fin 2048) :=
  funext fun a => Fin.ext (by match a with | ⟨0, _⟩ => rfl | ⟨1, _⟩ => rfl | ⟨2, _⟩ => rfl | ⟨3, _⟩ => rfl)

/-! ### The stages at coordinates -/

variable (Q K V : (⟨S4x16x2048x64, .f32⟩ : BufTy).Contents (Elt Ideal))

/-- The score of query row `r` against key `s` in head `(b, h)`. -/
theorem score_apply (b : Fin 4) (h : Fin 16) (r s : Fin 2048) :
    val_main_v2 (F := Ideal) Q K (ix4 b h r s)
      = Cert.Attn.scoreSoftmaxFirst (fun d : Fin 64 => Q (ix4 b h r d)) (fun (j : Fin 2048) (d : Fin 64) => K (ix4 b h j d)) s := by
  rw [val_main_v2_apply, val_main_v0_apply, val_main_v1_apply, val_main_cst_apply]
  simp only [lidx0, ridx0]
  rfl

/-- The row maximum (the one stage the generated lemmas do not read): the fold of `max` from `-∞` over the row's scores. -/
theorem rowmax_apply (b : Fin 4) (h : Fin 16) (r : Fin 2048) :
    val_main_v3 (F := Ideal) Q K (ix3 b h r)
      = (Finset.univ : Finset (Fin 2048)).fold max Cert.Attn.negInf
          (Cert.Attn.scoreSoftmaxFirst (fun d : Fin 64 => Q (ix4 b h r d)) (fun (j : Fin 2048) (d : Fin 64) => K (ix4 b h j d))) := by
  have hR : S4x16x2048x2048.Reduces [3] S4x16x2048 := by decide
  unfold val_main_v3
  rw [Host.reduce_eq_fold_single FloatOps.maximumf _ _ reducesTo_S4x16x2048x2048_S4x16x2048_d3 hR h_S_]
  have hf : (val_main_v2 (F := Ideal) Q K ∘ hR.lift (ix3 b h r))
      = Cert.Attn.scoreSoftmaxFirst (fun d : Fin 64 => Q (ix4 b h r d)) (fun (j : Fin 2048) (d : Fin 64) => K (ix4 b h j d)) :=
    funext fun s => by
      show val_main_v2 (F := Ideal) Q K (hR.lift (ix3 b h r) s) = _
      rw [lift3, score_apply]
      rfl
  exact congrArg (fun f => Finset.fold max Cert.Attn.negInf f (Finset.univ : Finset (Fin 2048))) hf

/-- The unnormalised weight of key `s` in row `r`. -/
theorem weight_apply (b : Fin 4) (h : Fin 16) (r s : Fin 2048) :
    val_main_v9 (F := Ideal) Q K (ix4 b h r s)
      = Cert.Attn.weightSoftmaxFirst (fun d : Fin 64 => Q (ix4 b h r d)) (fun (j : Fin 2048) (d : Fin 64) => K (ix4 b h j d)) s := by
  rw [val_main_v9_apply, val_main_v8_apply, val_main_v7_apply, val_main_v6_apply, idx67, val_main_v5_apply, val_main_v4_apply,
    val_main_cst_1_apply, rowmax_apply, score_apply]
  rfl

/-- The row's sum of weights, started from the f32 zero. -/
theorem rowsum_apply (b : Fin 4) (h : Fin 16) (r : Fin 2048) :
    val_main_v10 (F := Ideal) Q K (ix3 b h r)
      = Cert.Attn.zeroW + ∑ s : Fin 2048,
          Cert.Attn.weightSoftmaxFirst (fun d : Fin 64 => Q (ix4 b h r d)) (fun (j : Fin 2048) (d : Fin 64) => K (ix4 b h j d)) s := by
  rw [val_main_v10_apply]
  simp only [idx10, weight_apply]
  rfl

/-- THE REFERENCE AT AN ENTRY. -/
theorem result_apply (b : Fin 4) (h : Fin 16) (r : Fin 2048) (e : Fin 64) :
    val_main_v14 (F := Ideal) Q K V (ix4 b h r e)
      = Cert.Attn.rowSoftmaxFirst (fun d : Fin 64 => Q (ix4 b h r d)) (fun (j : Fin 2048) (d : Fin 64) => K (ix4 b h j d))
          (fun (j : Fin 2048) (d : Fin 64) => V (ix4 b h j d)) e := by
  rw [val_main_v14_apply]
  unfold Cert.Attn.rowSoftmaxFirst
  refine Finset.sum_congr rfl fun k _ => ?_
  rw [lidx14, ridx14, val_main_v13_apply, val_main_v12_apply, val_main_v11_apply, idx1112, rowsum_apply, weight_apply]
  rfl

end Cert.ReferenceIdeal.Hand

end
-- ==== Proof.AttnAlgebra.lean ====
/-
  The two arrangements of one attention row agree on finite data.

  With real entries every quantity in sight is the coercion of a real number: both scores are the coercion of
  `s j = (∑ d, q d · K j d) · c` (the scale leaves the finite sum over the features), the maximum of finitely many
  (and at least one) coerced reals is a coerced real `m`, every weight is the coercion of `exp (s j - m) > 0`, and their
  sum is the coercion of a positive real `l`. Division by `l` is then the product with the real `1 / l`, which leaves
  the finite sum over the keys. All the algebra is done in ℝ and coerced, since multiplication on the extended reals does
  not distribute over addition in general.
-/
import proofs.«170479_j21586505630084_2_alg».proof.Proof.AttnSpec

noncomputable section

namespace Cert.Attn

open Idealize.ShloMosaic

/-! ### Coercions of finite sums and maxima -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, started from `⊥`, of coerced reals over a finite set: the set is empty, or the maximum is a coerced
    real. -/
theorem fold_max_coe {ι : Type*} (s : Finset ι) (f : ι → ℝ) :
    s = ∅ ∨ ∃ m : ℝ, s.fold max (⊥ : EReal) (fun i => (f i : EReal)) = (m : EReal) := by
  classical
  induction s using Finset.induction_on with
  | empty => exact Or.inl rfl
  | insert a s ha ih =>
    refine Or.inr ?_
    rw [Finset.fold_insert ha]
    rcases ih with h | ⟨m, h⟩
    · subst h
      exact ⟨f a, by rw [Finset.fold_empty, max_bot_right]⟩
    · rw [h]
      exact ⟨max (f a) m, (EReal.coe_strictMono.monotone.map_max).symm⟩

/-! ### The three constants -/

/-- The word `0xFF800000` is `-∞`. -/
theorem negInf_eq : negInf = ⊥ := by simp [Ideal.ofBits, Ideal.ieee]

/-- The word `0x00000000` is zero. -/
theorem zeroW_eq : zeroW = 0 := by simp [Ideal.ofBits, Ideal.ieee]

/-- The scale word `0x3E000000` is a real number (it is `1/8`). -/
theorem scaleC_real : ∃ r : ℝ, scaleC = (r : EReal) := by
  refine ⟨(1 : ℝ) / 8, ?_⟩
  simp [Ideal.ofBits, Ideal.ieee, -EReal.coe_mul]; norm_num

/-! ### The scores, the weights and the row -/

variable {N D E : ℕ}

/-- With the query scaled first, the score of real data is the coercion of `(∑ d, q d · K j d) · c`. -/
theorem scoreScaledFirst_coe (c : ℝ) (hc : scaleC = (c : EReal)) (q : Fin D → ℝ) (K : Fin N → Fin D → ℝ) (j : Fin N) :
    scoreScaledFirst (fun d => (q d : EReal)) (fun j d => (K j d : EReal)) j
      = (((∑ d, q d * K j d) * c : ℝ) : EReal) := by
  unfold scoreScaledFirst
  rw [hc]
  simp only [← EReal.coe_mul]
  rw [← coe_finset_sum, Finset.sum_mul]
  exact congrArg _ (Finset.sum_congr rfl fun d _ => by ring)

/-- With the finished dot product scaled, the score of real data is the coercion of the same real. -/
theorem scoreSoftmaxFirst_coe (c : ℝ) (hc : scaleC = (c : EReal)) (q : Fin D → ℝ) (K : Fin N → Fin D → ℝ) (j : Fin N) :
    scoreSoftmaxFirst (fun d => (q d : EReal)) (fun j d => (K j d : EReal)) j
      = (((∑ d, q d * K j d) * c : ℝ) : EReal) := by
  unfold scoreSoftmaxFirst
  rw [hc]
  simp only [← EReal.coe_mul]
  rw [← coe_finset_sum, ← EReal.coe_mul]

/-- On finite data the two arrangements of the row agree. -/
theorem rowScaledFirst_eq_rowSoftmaxFirst {N D E : ℕ} (hN : 0 < N)
    (q : Fin D → EReal) (K : Fin N → Fin D → EReal) (V : Fin N → Fin E → EReal)
    (hq : ∀ d, ∃ r : ℝ, q d = (r : EReal)) (hK : ∀ j d, ∃ r : ℝ, K j d = (r : EReal))
    (hV : ∀ j e, ∃ r : ℝ, V j e = (r : EReal))
    (e : Fin E) : rowScaledFirst q K V e = rowSoftmaxFirst q K V e := by
  -- real witnesses for the data and for the scale
  choose q' hq' using hq
  choose K' hK' using hK
  choose V' hV' using hV
  obtain ⟨c', hc⟩ := scaleC_real
  obtain rfl : q = fun d => (q' d : EReal) := funext hq'
  obtain rfl : K = fun j d => (K' j d : EReal) := funext fun j => funext (hK' j)
  obtain rfl : V = fun j e => (V' j e : EReal) := funext fun j => funext (hV' j)
  -- (1) both scores are the coercion of one real
  have h1 : scoreScaledFirst (fun d => (q' d : EReal)) (fun j d => (K' j d : EReal))
      = fun j => (((∑ d, q' d * K' j d) * c' : ℝ) : EReal) :=
    funext fun j => scoreScaledFirst_coe c' hc q' K' j
  have h2 : scoreSoftmaxFirst (fun d => (q' d : EReal)) (fun j d => (K' j d : EReal))
      = fun j => (((∑ d, q' d * K' j d) * c' : ℝ) : EReal) :=
    funext fun j => scoreSoftmaxFirst_coe c' hc q' K' j
  -- (2) the maximum over the nonempty index set is a coerced real
  have hne : (Finset.univ : Finset (Fin N)) ≠ ∅ :=
    Finset.nonempty_iff_ne_empty.mp ⟨⟨0, hN⟩, Finset.mem_univ _⟩
  obtain ⟨m', hm'⟩ := (fold_max_coe (Finset.univ : Finset (Fin N))
    (fun j => (∑ d, q' d * K' j d) * c')).resolve_left hne
  -- (3) each weight is the coercion of a positive real
  have hw1 : ∀ j, weightScaledFirst (fun d => (q' d : EReal)) (fun j d => (K' j d : EReal)) j
      = ((Real.exp ((∑ d, q' d * K' j d) * c' - m') : ℝ) : EReal) := by
    intro j
    unfold weightScaledFirst
    rw [h1, negInf_eq, hm', ← EReal.coe_sub, Ideal.exp_coe]
  have hw2 : ∀ j, weightSoftmaxFirst (fun d => (q' d : EReal)) (fun j d => (K' j d : EReal)) j
      = ((Real.exp ((∑ d, q' d * K' j d) * c' - m') : ℝ) : EReal) := by
    intro j
    unfold weightSoftmaxFirst
    rw [h2, negInf_eq, hm', max_bot_left, ← EReal.coe_sub, Ideal.exp_coe]
  -- (4) their sum is the coercion of a positive real
  have hl : 0 < ∑ j : Fin N, Real.exp ((∑ d, q' d * K' j d) * c' - m') :=
    Finset.sum_pos (fun j _ => Real.exp_pos _) ⟨⟨0, hN⟩, Finset.mem_univ _⟩
  -- (5) division by it is the product with its reciprocal, which leaves the finite sum
  unfold rowScaledFirst rowSoftmaxFirst
  simp only [hw1, hw2]
  rw [zeroW_eq, zero_add, ← coe_finset_sum, Ideal.div_coe hl.ne']
  simp only [Ideal.div_coe hl.ne', ← EReal.coe_mul]
  rw [← coe_finset_sum, ← coe_finset_sum, ← EReal.coe_mul, Finset.sum_mul]
  exact congrArg _ (Finset.sum_congr rfl fun j _ => by ring)

end Cert.Attn

end
-- ==== Proof.FiniteArgs.lean ====
/-
  Finiteness of the three inputs, read back from the precondition.

  The precondition is the conjunction, over the three f32[4,16,2048,64] arrays x, of
  "every entry of x satisfies |x| < +∞": an elementwise comparison of max (x i) (-(x i)) with the
  word 0x7F800000, reduced by "and" over all four axes. If the whole predicate is 1, each conjunct
  is 1, each reduction by "and" that is 1 met only 1s, and an extended real a with max a (-a) < ⊤
  is neither ⊤ nor ⊥, that is, it is a real number.
-/
import proofs.«170479_j21586505630084_2_alg».proof.Pre_finite_inputs
import proofs.«170479_j21586505630084_2_alg».proof.Proof.Gen.Pre_finite_inputs
import Idealize.ShloMosaic.PureOps.Ideal
import Idealize.ShloMosaic.Lib.ReduceAll

noncomputable section

namespace Cert.FiniteArgs

open Idealize.ShloMosaic

/-- The f32 word 0x7F800000 (sign 0, exponent all ones, fraction 0) denotes +∞. -/
theorem inf_word : Ideal.ofBits .f32 0x7F800000#32 = (⊤ : EReal) := by
  simp [Ideal.ofBits, Ideal.ieee]

/-- An extended real whose absolute value max a (-a) is strictly below ⊤ is a real number:
    at a = ⊤ the maximum is ⊤, at a = ⊥ it is -⊥ = ⊤, and neither is below ⊤. -/
theorem real_of_abs_lt_top (a : EReal) (h : Ideal.cmp .olt (max a (-a)) ⊤ = 1#1) :
    ∃ r : ℝ, a = (r : EReal) := by
  induction a using EReal.rec with
  | bot => simp [Ideal.cmp] at h
  | top => simp [Ideal.cmp] at h
  | coe r => exact ⟨r, rfl⟩

/-- One array: if the reduction by "and", over all axes, of the elementwise test |x| < c is 1,
    where c is +∞ at every index, then every entry of x is a real number. -/
theorem real_of_all_abs_lt_inf {s t u : Shape} {axes : List (Fin s.rank)} [Subsingleton t.Idx]
    (x c : FVec Ideal s .f32) (hc : ∀ i, c i = (⊤ : EReal))
    (init : IVec u 1) (h : s.ReducesTo axes t) (hu : 0 < u.numel) (j : t.Idx)
    (e : Host.reduce IntOp.andi (cmpf .olt (Host.absf x) c) init h hu j = 1#1) (i : s.Idx) :
    ∃ r : ℝ, x i = (r : EReal) := by
  have hi : cmpf .olt (Host.absf x) c i = 1#1 := Host.reduce_andi_all _ init h hu j e i
  apply real_of_abs_lt_top
  rw [← hc i]
  exact hi

/-- The rank-0 shape has exactly one index. -/
instance : Subsingleton Cert.Pre_finite_inputs.S_.Idx := ⟨fun a b => funext fun d => d.elim0⟩

/-- The precondition gives: every entry of each of the three inputs is a real number. -/
theorem real_of_pre (x0 x1 x2 : FVec Ideal Cert.Pre_finite_inputs.S4x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ r : ℝ, x2 i = (r : EReal)) := by
  have h0 := congrFun h (fun d => d.elim0)
  dsimp only [Cert.Pre_finite_inputs.fn] at h0
  obtain ⟨h01, e2⟩ := IntOp.andi_eq_one.1 h0
  obtain ⟨e0, e1⟩ := IntOp.andi_eq_one.1 h01
  have hc : ∀ i : Cert.Pre_finite_inputs.S4x16x2048x64.Idx,
      broadcastInDim Cert.Pre_finite_inputs.S4x16x2048x64 ![]
        Cert.Pre_finite_inputs.Facts.bcast_S_S4x16x2048x64
        (constant (F := Ideal) Cert.Pre_finite_inputs.S_ .f32 0x7F800000#32) i = (⊤ : EReal) :=
    fun _ => inf_word
  exact ⟨fun i => real_of_all_abs_lt_inf x0 _ hc _ _ _ _ e0 i,
    fun i => real_of_all_abs_lt_inf x1 _ hc _ _ _ _ e1 i,
    fun i => real_of_all_abs_lt_inf x2 _ hc _ _ _ _ e2 i⟩

end Cert.FiniteArgs

end
-- ==== Proof.lean ====
/-
  Scaled-dot-product attention over `[4, 16, 2048, 64]` queries, keys and values: a kernel that, per head and per tile of 512
  query rows, scales the queries by 1/8, multiplies by the transposed keys, exponentiates the scores less their row maximum, and
  divides the product of these weights with the values by the rows' sums — against the reference that scales the finished
  scores, takes the softmax of each row and multiplies the normalised weights with the values.

  The mathematics of the equivalence, on the extended reals:
  * the kernel's result array is ONE function of the argument arrays: entry `(b, h, r, e)` is the row formula with the query
    scaled first and the weights normalised last, at query row `r` of head `(b, h)` (the blocks tile the merged `[64, 2048, 64]`
    array, and batch and head merge to `16 b + h` on the way in and split again on the way out);
  * the reference's result at `(b, h, r, e)` is the row formula with the score scaled and the weights normalised first;
  * on FINITE data the two row formulas agree: the scale 1/8 leaves the finite sum over the 64 features, every weight is the
    exponential of a real, so the sum `l` of a row's 2048 weights is a positive real, and `1 / l` leaves the finite sum over the
    keys. Finiteness is what the precondition states, and it is used: neither step holds at infinite entries.
  The kernel's idealization rewrote nothing, so that claim is trivial; the three frame claims are the generated frame runs.
-/
import proofs.«170479_j21586505630084_2_alg».proof.Defs
import proofs.«170479_j21586505630084_2_alg».proof.Proof.Gen.Kernel
import proofs.«170479_j21586505630084_2_alg».proof.Proof.Gen.Kernel.Skeleton
import proofs.«170479_j21586505630084_2_alg».proof.Proof.Gen.Kernel.Launch
import proofs.«170479_j21586505630084_2_alg».proof.Proof.Gen.Kernel.Points
import proofs.«170479_j21586505630084_2_alg».proof.Proof.Gen.Kernel.Frame
import proofs.«170479_j21586505630084_2_alg».proof.Proof.Gen.KernelIdeal
import proofs.«170479_j21586505630084_2_alg».proof.Proof.Gen.KernelIdeal.Skeleton
import proofs.«170479_j21586505630084_2_alg».proof.Proof.Gen.KernelIdeal.Launch
import proofs.«170479_j21586505630084_2_alg».proof.Proof.Gen.KernelIdeal.Points
import proofs.«170479_j21586505630084_2_alg».proof.Proof.Gen.KernelIdeal.Frame
import proofs.«170479_j21586505630084_2_alg».proof.Proof.Gen.ReferenceIdeal
import proofs.«170479_j21586505630084_2_alg».proof.Proof.Gen.Pre_finite_inputs
import proofs.«170479_j21586505630084_2_alg».proof.Proof.Gen.ReferenceIdeal.Run
import proofs.«170479_j21586505630084_2_alg».proof.Proof.Gen.ReferenceIdeal.Read
import proofs.«170479_j21586505630084_2_alg».proof.Proof.Tail
import proofs.«170479_j21586505630084_2_alg».proof.Proof.RefRead
import proofs.«170479_j21586505630084_2_alg».proof.Proof.AttnAlgebra
import proofs.«170479_j21586505630084_2_alg».proof.Proof.FiniteArgs
import Idealize.ShloMosaic.Adequacy
import Idealize.ShloMosaic.Init

noncomputable section

namespace Cert.Proof

open Idealize.ShloMosaic Idealize.ShloMosaic.ValueIdx Idealize.SL.Sem

/-- On finite arrays the reference's result and the kernel's are one function: entry by entry the two row formulas agree. -/
theorem result_eq (Q K V : FVec Ideal Cert.KernelIdeal.S4x16x2048x64 .f32)
    (hQ : ∀ i, ∃ r : ℝ, Q i = (r : EReal)) (hK : ∀ i, ∃ r : ℝ, K i = (r : EReal)) (hV : ∀ i, ∃ r : ℝ, V i = (r : EReal)) :
    Cert.ReferenceIdeal.Read.val_main_v14 (F := Ideal) Q K V = Cert.KernelIdeal.Hand.attnResult Q K V := by
  funext i
  obtain ⟨b, hd, r, e, rfl⟩ : ∃ (b : Fin 4) (hd : Fin 16) (r : Fin 2048) (e : Fin 64), i = ix4 b hd r e :=
    ⟨i 0, i 1, i 2, i 3, eq_ix4 i⟩
  rw [Cert.ReferenceIdeal.Hand.result_apply, Cert.KernelIdeal.Hand.attnResult_apply]
  exact (Cert.Attn.rowScaledFirst_eq_rowSoftmaxFirst (by decide) _ _ _ (fun d => hQ _) (fun j d => hK _) (fun j d => hV _) e).symm

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs run; the kernel's result array ends at `attnResult` of the arguments, the reference's at its own
    composed term of arguments that agree, and under the precondition (every entry real) the two are equal. -/
theorem algebraic : Cert.algebraic_KernelIdeal_ReferenceIdeal := by
  intro m ρ m' ρ' hpre hagree
  refine ⟨fun c => Cert.KernelIdeal.Hand.attnResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨fQ, fK, fV⟩ := Cert.FiniteArgs.real_of_pre _ _ _ (hpre c)
  rw [(hagree c).1, (hagree c).2.1, (hagree c).2.2, Cert.ReferenceIdeal.Read.val_main_v14_eq]
  exact result_eq _ _ _ fQ fK fV

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
